-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1x1024 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S32x2048x1024 .f32) (main_arg1 : FVec F S32x1024 .f32) (main_arg2 : FVec F S1024x1024 .f32) (main_arg3 : FVec F S1024 .f32) (main_arg4 : FVec F S1024x1024 .f32) (main_arg5 : FVec F S1024 .f32) (main_arg6 : FVec F S1x1024 .f32) (main_arg7 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S32x1x1024 : Shape := ⟨3, ![32, 1, 1024]⟩
abbrev S32x2048x1 : Shape := ⟨3, ![32, 2048, 1]⟩
abbrev S1x1024x1024 : Shape := ⟨3, ![1, 1024, 1024]⟩
abbrev S1x1x1024 : Shape := ⟨3, ![1, 1, 1024]⟩
abbrev S1x1024x1 : Shape := ⟨3, ![1, 1024, 1]⟩
abbrev S1024x1 : Shape := ⟨2, ![1024, 1]⟩
abbrev S1x1 : Shape := ⟨2, ![1, 1]⟩
abbrev S_ : Shape := ⟨0, ![]⟩
abbrev S32x1 : Shape := ⟨2, ![32, 1]⟩
abbrev S32x1x1 : Shape := ⟨3, ![32, 1, 1]⟩
abbrev S32x1x2048 : Shape := ⟨3, ![32, 1, 2048]⟩
abbrev S1x2048x1024 : Shape := ⟨3, ![1, 2048, 1024]⟩
abbrev S1x1x2048 : Shape := ⟨3, ![1, 1, 2048]⟩
abbrev S2048x1024 : Shape := ⟨2, ![2048, 1024]⟩
abbrev S1x2048 : Shape := ⟨2, ![1, 2048]⟩
abbrev S1x32x1024 : Shape := ⟨3, ![1, 32, 1024]⟩

abbrev nBuf : Space → Nat
  | .hbm => 32
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S32x2048x1, .f32⟩
  | .hbm, ⟨14, _⟩ => ⟨S_, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1x1, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S_, .f32⟩
  | .hbm, ⟨24, _⟩ => ⟨S32x1, .f32⟩
  | .hbm, ⟨25, _⟩ => ⟨S32x1x1, .f32⟩
  | .hbm, ⟨26, _⟩ => ⟨S32x2048x1, .f32⟩
  | .hbm, ⟨27, _⟩ => ⟨S32x2048x1, .f32⟩
  | .hbm, ⟨28, _⟩ => ⟨S32x1x2048, .f32⟩
  | .hbm, ⟨29, _⟩ => ⟨S32x1x1024, .f32⟩
  | .hbm, ⟨30, _⟩ => ⟨S32x1024, .f32⟩
  | .hbm, ⟨31, _⟩ => ⟨S1x32x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1, .f32⟩
  | .local _ .vmem, ⟨8, _⟩ => ⟨S1x1024x1, .f32⟩
  | .local _ .vmem, ⟨9, _⟩ => ⟨S1x1024x1, .f32⟩
  | .local _ .vmem, ⟨10, _⟩ => ⟨S1x2048x1024, .f32⟩
  | .local _ .vmem, ⟨11, _⟩ => ⟨S1x2048x1024, .f32⟩
  | .local _ .vmem, ⟨12, _⟩ => ⟨S1x1x2048, .f32⟩
  | .local _ .vmem, ⟨13, _⟩ => ⟨S1x1x2048, .f32⟩
  | .local _ .vmem, ⟨14, _⟩ => ⟨S1x1x1024, .f32⟩
  | .local _ .vmem, ⟨15, _⟩ => ⟨S1x1x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  shapeCasts_S32x1024_S32x1x1024 : S32x1024.ShapeCasts S32x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024_S1x1024_0_0 : ∀ a, (![0, 0] : Fin 2 → Nat) a + S1x1024.size a ≤ S1x1024.size a
  h_S1x1024 : 0 < S1x1024.numel
  reduces_S1024x1024_S1024 : S1024x1024.Reduces [1] S1024
  shapeCasts_S1024_S1024x1 : S1024.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  transposes_S32x2048x1_S32x1x2048_0_2_1 : S32x2048x1.Transposes [0, 2, 1] S32x1x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x1024_S1x1x1024 : S1x1024.ShapeCasts S1x1x1024
  shapeCasts_S32x1x1024_S32x1024 : S32x1x1024.ShapeCasts S32x1024
  bcast_S32x1024_S1x32x1024_1_2 : S32x1024.BroadcastsInDim S1x32x1024 (![1, 2] : Fin 2 → Fin S1x32x1024.rank)
  dot_S32x1024_S1024x1024_S32x1024_1_1_0_0_n_n_wf : DotDims.WF S32x1024 S1024x1024 S32x1024 [1] [1] [0] [0] [] []
  dot_S1024x1024_S1024x1024_S1024x1024_1_1_0_0_n_n_wf : DotDims.WF S1024x1024 S1024x1024 S1024x1024 [1] [1] [0] [0] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S32x2048x1.size a
  hwx0_6 : ∀ i : grid0.Coords, EltTy.bits .f32 = 32 ∨ (Rect.block (s := S32x2048x1) S1x1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S32x2048x1024.size a
  hwx1_0 : ∀ i : grid1.Coords, EltTy.bits .f32 = 32 ∨ (Rect.block (s := S32x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S32x1x2048.size a
  hwx1_1 : ∀ i : grid1.Coords, EltTy.bits .f32 = 32 ∨ (Rect.block (s := S32x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S32x1x1024.size a
  hwx1_2 : ∀ i : grid1.Coords, EltTy.bits .f32 = 32 ∨ (Rect.block (s := S32x1x1024) S1x1x1024.size (cc1_transform_2 i) (hinb1_2 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S32x1x1024 : Shape := ⟨3, ![32, 1, 1024]⟩
abbrev S1x1x1024 : Shape := ⟨3, ![1, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x1x2048 : Shape := ⟨3, ![32, 1, 2048]⟩
abbrev S1x32x1024 : Shape := ⟨3, ![1, 32, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S32x1x1024, .f32⟩
  | .hbm, ⟨9, _⟩ => ⟨S32x2048x1024, .f32⟩
  | .hbm, ⟨10, _⟩ => ⟨S1x1x1024, .f32⟩
  | .hbm, ⟨11, _⟩ => ⟨S32x2048x1024, .f32⟩
  | .hbm, ⟨12, _⟩ => ⟨S32x2048x1024, .f32⟩
  | .hbm, ⟨13, _⟩ => ⟨S32x1x1024, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x1x2048, .f32⟩
  | .hbm, ⟨39, _⟩ => ⟨S32x1x1024, .f32⟩
  | .hbm, ⟨40, _⟩ => ⟨S32x1024, .f32⟩
  | .hbm, ⟨41, _⟩ => ⟨S1x32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S32x1024_S32x1x1024_0_2 : S32x1024.BroadcastsInDim S32x1x1024 (![0, 2] : Fin 2 → Fin S32x1x1024.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  transposes_S32x2048x1_S32x1x2048_0_2_1 : S32x2048x1.Transposes [0, 2, 1] S32x1x2048
  shapeCasts_S32x1x1024_S32x1024 : S32x1x1024.ShapeCasts S32x1024
  bcast_S32x1024_S1x32x1024_1_2 : S32x1024.BroadcastsInDim S1x32x1024 (![1, 2] : Fin 2 → Fin S1x32x1024.rank)
  dot_S32x2048x1024_S1024x1024_S32x2048x1024_2_1_01_0_n_n_wf : DotDims.WF S32x2048x1024 S1024x1024 S32x2048x1024 [2] [1] [0, 1] [0] [] []
  dot_S32x1x1024_S1024x1024_S32x1x1024_2_1_01_0_n_n_wf : DotDims.WF S32x1x1024 S1024x1024 S32x1x1024 [2] [1] [0, 1] [0] [] []
  dot_S32x2048x1024_S1x1024_S32x2048x1_2_1_01_0_n_n_wf : DotDims.WF S32x2048x1024 S1x1024 S32x2048x1 [2] [1] [0, 1] [0] [] []
  dot_S32x1x2048_S32x2048x1024_S32x1x1024_2_1_1_2_0_0_wf : DotDims.WF S32x1x2048 S32x2048x1024 S32x1x1024 [2] [1] [1] [2] [0] [0]

variable [Facts₀]

def dot_S32x2048x1024_S1024x1024_S32x2048x1024_2_1_01_0_n_n : DotDims S32x2048x1024 S1024x1024 S32x2048x1024 where
  lhsContracting := [2]
  rhsContracting := [1]
  lhsNonContracting := [0, 1]
  rhsNonContracting := [0]
  lhsBatch := []
  rhsBatch := []
  wf := dot_S32x2048x1024_S1024x1024_S32x2048x1024_2_1_01_0_n_n_wf
def dot_S32x1x1024_S1024x1024_S32x1x1024_2_1_01_0_n_n : DotDims S32x1x1024 S1024x1024 S32x1x1024 where
  lhsContracting := [2]
  rhsContracting := [1]
  lhsNonContracting := [0, 1]
  rhsNonContracting := [0]
  lhsBatch := []
  rhsBatch := []
  wf := dot_S32x1x1024_S1024x1024_S32x1x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf
def dot_S32x1x2048_S32x2048x1024_S32x1x1024_2_1_1_2_0_0 : DotDims S32x1x2048 S32x2048x1024 S32x1x1024 where
  lhsContracting := [2]
  rhsContracting := [1]
  lhsNonContracting := [1]
  rhsNonContracting := [2]
  lhsBatch := [0]
  rhsBatch := [0]
  wf := dot_S32x1x2048_S32x2048x1024_S32x1x1024_2_1_1_2_0_0_wf

class Facts : Prop extends Facts₀ where

variable [Facts]
-- ==== Proof.KRun.lean ====
/-
  The idealized kernel's run with its two results NAMED. The program is five segments: host operations, the score
  region, host operations (the softmax over the time axis and a transpose), the context region, host operations (a
  relayout). The contents of every buffer at each boundary are a fold through those segments; here the run is stated
  with each result buffer at the last boundary's contents, beside the unchanged arguments. What those contents are,
  as functions of the arguments, is read in the modules that import this one.
-/
import proofs.«179102_j50989851738500_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the context result and the attention weights end at the
    last boundary's contents, and the arguments end as launched. -/
theorem run : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Named

end
-- ==== Proof.Spec.lean ====
/-
  The specification: what the two programs compute, index by index, on the extended reals.
  With x : [32, 2048, 1024], h : [32, 1024], W1, W2 : [1024, 1024], b1, b2 : [1024], V : [1, 1024], vb : [1]:
    hid b u      = Σ_k h[b,k] · W2[u,k] + b2[u]                              (the hidden state's projection)
    score b t    = Σ_u tanh((Σ_k x[b,t,k] · W1[u,k] + b1[u]) + hid b u) · V[0,u] + vb[0]
    context b u  = Σ_t a[b,0,t] · x[b,t,u]                                    (a : [32, 1, 2048], the attention weights)
  The score is stated over an ARRAY `hp : [32, 1, 1024]` in the place of `hid`, because the kernel's first region reads
  the projection from such an array; `hidArr` is the array that holds `hid`.
  The one algebraic law between the two programs is the associativity of addition, which holds on the extended reals
  with no finiteness assumption: the reference adds `b2` last, `((p + b1) + q) + b2`, where the kernel adds the
  projection `q + b2` as one term, `(p + b1) + (q + b2)`.
-/
import Idealize.ShloMosaic.PureOps.Ideal
import Idealize.ShloMosaic.Lib.ValueIdx

noncomputable section

namespace Cert.Attn

open Idealize.ShloMosaic Idealize.ShloMosaic.ValueIdx

/-- The hidden state's projection at batch entry `b`, unit `u`. -/
def hid (h : (⟨2, ![32, 1024]⟩ : Shape).Idx → EReal) (W2 : (⟨2, ![1024, 1024]⟩ : Shape).Idx → EReal)
    (b2 : (⟨1, ![1024]⟩ : Shape).Idx → EReal) (b : Fin 32) (u : Fin 1024) : EReal :=
  (∑ k : Fin 1024, h (ix2 b k) * W2 (ix2 u k)) + b2 (ix1 u)

/-- The projection as the `[32, 1, 1024]` array the first region reads. -/
def hidArr (h : (⟨2, ![32, 1024]⟩ : Shape).Idx → EReal) (W2 : (⟨2, ![1024, 1024]⟩ : Shape).Idx → EReal)
    (b2 : (⟨1, ![1024]⟩ : Shape).Idx → EReal) : (⟨3, ![32, 1, 1024]⟩ : Shape).Idx → EReal :=
  fun i => hid h W2 b2 (i 0) (i 2)

/-- One attention score, over an array `hp` holding the hidden projection. -/
def score (x : (⟨3, ![32, 2048, 1024]⟩ : Shape).Idx → EReal) (W1 : (⟨2, ![1024, 1024]⟩ : Shape).Idx → EReal)
    (b1 : (⟨1, ![1024]⟩ : Shape).Idx → EReal) (hp : (⟨3, ![32, 1, 1024]⟩ : Shape).Idx → EReal)
    (V : (⟨2, ![1, 1024]⟩ : Shape).Idx → EReal) (vb : (⟨1, ![1]⟩ : Shape).Idx → EReal) (b : Fin 32) (t : Fin 2048) : EReal :=
  (∑ u : Fin 1024, Ideal.tanh (((∑ k : Fin 1024, x (ix3 b t k) * W1 (ix2 u k)) + b1 (ix1 u)) + hp (ix3 b (0 : Fin 1) u))
      * V (ix2 (0 : Fin 1) u)) + vb (ix1 (0 : Fin 1))

/-- The scores as the `[32, 2048, 1]` array both programs hold before the softmax. -/
def scoreArr (x : (⟨3, ![32, 2048, 1024]⟩ : Shape).Idx → EReal) (W1 : (⟨2, ![1024, 1024]⟩ : Shape).Idx → EReal)
    (b1 : (⟨1, ![1024]⟩ : Shape).Idx → EReal) (hp : (⟨3, ![32, 1, 1024]⟩ : Shape).Idx → EReal)
    (V : (⟨2, ![1, 1024]⟩ : Shape).Idx → EReal) (vb : (⟨1, ![1]⟩ : Shape).Idx → EReal) :
    (⟨3, ![32, 2048, 1]⟩ : Shape).Idx → EReal :=
  fun i => score x W1 b1 hp V vb (i 0) (i 1)

/-- The context vectors as a `[32, 1, 1024]` array: the attention-weighted sum of the rows of `x`. -/
def ctxArr (a : (⟨3, ![32, 1, 2048]⟩ : Shape).Idx → EReal) (x : (⟨3, ![32, 2048, 1024]⟩ : Shape).Idx → EReal) :
    (⟨3, ![32, 1, 1024]⟩ : Shape).Idx → EReal :=
  fun i => ∑ t : Fin 2048, a (ix3 (i 0) (0 : Fin 1) t) * x (ix3 (i 0) t (i 2))

end Cert.Attn

end
-- ==== Proof.Tail.lean ====
/-
  The two stretches of host operations that BOTH programs apply, each named once as a function of the array it is applied
  to, so that no proof opens them: the softmax over the time axis followed by the transpose `[32, 2048, 1] → [32, 1, 2048]`
  (fourteen operations: the running maximum against -inf, the shift, the exponential, the sum, the quotient), and the final
  relayout `[32, 1, 1024] → [32, 1024] → [1, 32, 1024]`. The two programs agree on a result as soon as they agree on the
  array going in.
-/
import proofs.«179102_j50989851738500_2_alg».proof.Proof.Gen.KernelIdeal
import Idealize.ShloMosaic.PureOps.Ideal

noncomputable section

namespace Cert.Attn

open Idealize.ShloMosaic Cert.KernelIdeal Cert.KernelIdeal.Facts₀

/-- The attention weights from the scores: softmax along the time axis (the maximum taken against -inf first, as the
    host does), then the last two axes swapped. -/
def softmaxT (s : FVec Ideal S32x2048x1 .f32) : FVec Ideal S32x1x2048 .f32 :=
  transpose S32x1x2048 [0, 2, 1]
    (Host.divf (F := Ideal)
      (Host.exp (F := Ideal) (subf s (broadcastInDim S32x2048x1 ![0, 1, 2] bcast_S32x1x1_S32x2048x1_0_1_2 (broadcastInDim S32x1x1 ![0, 2] bcast_S32x1_S32x1x1_0_2 (maximumf (broadcastInDim S32x1 ![] bcast_S_S32x1 (constant (F := Ideal) S_ .f32 0xFF800000#32)) (Host.reduce FloatOps.maximumf s (constant (F := Ideal) S_ .f32 0xFF800000#32) reducesTo_S32x2048x1_S32x1_d1 h_S_))))))
      (broadcastInDim S32x2048x1 ![0, 1, 2] bcast_S32x1x1_S32x2048x1_0_1_2 (broadcastInDim S32x1x1 ![0, 2] bcast_S32x1_S32x1x1_0_2 (Host.reduceAdd (F := Ideal) (Host.exp (F := Ideal) (subf s (broadcastInDim S32x2048x1 ![0, 1, 2] bcast_S32x1x1_S32x2048x1_0_1_2 (broadcastInDim S32x1x1 ![0, 2] bcast_S32x1_S32x1x1_0_2 (maximumf (broadcastInDim S32x1 ![] bcast_S_S32x1 (constant (F := Ideal) S_ .f32 0xFF800000#32)) (Host.reduce FloatOps.maximumf s (constant (F := Ideal) S_ .f32 0xFF800000#32) reducesTo_S32x2048x1_S32x1_d1 h_S_)))))) (constant (F := Ideal) S_ .f32 0x00000000#32) reducesTo_S32x2048x1_S32x1_d1 h_S_))))
    transposes_S32x2048x1_S32x1x2048_0_2_1

/-- The context array laid out as the program returns it: the unit axis dropped, then a leading unit axis added. -/
def relayout (y : FVec Ideal S32x1x1024 .f32) : FVec Ideal S1x32x1024 .f32 :=
  broadcastInDim S1x32x1024 ![1, 2] bcast_S32x1024_S1x32x1024_1_2 (shapeCast S32x1024 y shapeCasts_S32x1x1024_S32x1024)

end Cert.Attn

end
-- ==== Proof.KHost.lean ====
/-
  The idealized kernel's three stretches of host operations, read.
  Before the score region the host computes the hidden state's projection, `Σ_k h[b,k] · W2[u,k] + b2[u]`, reshaped to
  `[32, 1, 1024]`, and leaves the arguments alone. Between the regions it turns the score array into the attention
  weights (the shared softmax-and-transpose, never opened here). After the context region it relays the context array out
  (the shared relayout). A region changes only its output array: the arrays it reads, and every buffer it does not
  touch, hold afterwards what they held at its entry.
-/
import proofs.«179102_j50989851738500_2_alg».proof.Proof.Gen.KernelIdeal.Frame
import proofs.«179102_j50989851738500_2_alg».proof.Proof.Spec
import proofs.«179102_j50989851738500_2_alg».proof.Proof.Tail
import Idealize.ShloMosaic.Lib.ValueLayout
import Idealize.ShloMosaic.Lib.StableHlo.Run
import Idealize.ShloMosaic.PureOps.Ideal.Laws

set_option maxRecDepth 16384

noncomputable section

namespace Cert.Attn.HostK

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## Before the score region -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results

/-- The hidden state's projection as the host computes it. -/
def hidHost (h : FVec Ideal S32x1024 .f32) (W2 : FVec Ideal S1024x1024 .f32) (b2 : FVec Ideal S1024 .f32) : FVec Ideal S32x1x1024 .f32 :=
  shapeCast S32x1x1024 (addf (Host.dotGeneral (F := Ideal) dot_S32x1024_S1024x1024_S32x1024_1_1_0_0_n_n none h W2)
    (broadcastInDim S32x1024 ![0, 1] Facts₀.bcast_S1x1024_S32x1024_0_1 (broadcastInDim S1x1024 ![1] Facts₀.bcast_S1024_S1x1024_1 b2)))
    Facts₀.shapeCasts_S32x1024_S32x1x1024

/-- The score region finds the projection in its fourth operand's array. -/
theorem V1_v4 (c : Dev nD) : V1 m ρ c main_v4
    = hidHost (m ((c : Thread nD τ).loc main_arg1)) (m ((c : Thread nD τ).loc main_arg4)) (m ((c : Thread nD τ).loc main_arg5)) := by
  show StableHlo.after hostOps0 (W0 m ρ c) (Proc.devRef .tc main_v4) = _
  after_results; rfl

/-! The host's product contracts the last axis of both operands: at output entry `j` and contraction index `q` the
    hidden state is read at `(j 0, q)` and `W2` at `(j 1, q)`. -/

theorem lhs_0 (j : S32x1024.Idx) (q : dot_S32x1024_S1024x1024_S32x1024_1_1_0_0_n_n.contr.Idx) :
    (dot_S32x1024_S1024x1024_S32x1024_1_1_0_0_n_n.lhsIdx j q 0).val = (j 0).val := by
  unfold DotDims.lhsIdx
  rw [dif_neg (show ¬(0 : Fin S32x1024.rank) ∈ dot_S32x1024_S1024x1024_S32x1024_1_1_0_0_n_n.lhsBatch by decide), dif_pos (show (0 : Fin S32x1024.rank) ∈ dot_S32x1024_S1024x1024_S32x1024_1_1_0_0_n_n.lhsNonContracting by decide)]
  rfl
theorem lhs_1 (j : S32x1024.Idx) (q : dot_S32x1024_S1024x1024_S32x1024_1_1_0_0_n_n.contr.Idx) :
    (dot_S32x1024_S1024x1024_S32x1024_1_1_0_0_n_n.lhsIdx j q 1).val = (q ⟨0, by decide⟩).val :=
  dot_S32x1024_S1024x1024_S32x1024_1_1_0_0_n_n.lhsIdx_val_of_single rfl j q
theorem rhs_0 (j : S32x1024.Idx) (q : dot_S32x1024_S1024x1024_S32x1024_1_1_0_0_n_n.contr.Idx) :
    (dot_S32x1024_S1024x1024_S32x1024_1_1_0_0_n_n.rhsIdx j q 0).val = (j 1).val := by
  unfold DotDims.rhsIdx
  rw [dif_neg (show ¬(0 : Fin S1024x1024.rank) ∈ dot_S32x1024_S1024x1024_S32x1024_1_1_0_0_n_n.rhsBatch by decide), dif_pos (show (0 : Fin S1024x1024.rank) ∈ dot_S32x1024_S1024x1024_S32x1024_1_1_0_0_n_n.rhsNonContracting by decide)]
  rfl
theorem rhs_1 (j : S32x1024.Idx) (q : dot_S32x1024_S1024x1024_S32x1024_1_1_0_0_n_n.contr.Idx) :
    (dot_S32x1024_S1024x1024_S32x1024_1_1_0_0_n_n.rhsIdx j q 1).val = (q ⟨0, by decide⟩).val :=
  dot_S32x1024_S1024x1024_S32x1024_1_1_0_0_n_n.rhsIdx_val_of_single rfl j q

/-- The host's product at entry `(b, u)`: the sum over the shared last axis. -/
theorem hdot_at (h : FVec Ideal S32x1024 .f32) (W2 : FVec Ideal S1024x1024 .f32) (b : Fin 32) (u : Fin 1024) :
    Host.dotGeneral (F := Ideal) dot_S32x1024_S1024x1024_S32x1024_1_1_0_0_n_n none h W2 (ix2 b u) = ∑ k : Fin 1024, h (ix2 b k) * W2 (ix2 u k) := by
  simp only [Host.dotGeneral]
  rw [Ideal.dotGeneral_apply, ← Equiv.sum_comp (contrEquiv1 dot_S32x1024_S1024x1024_S32x1024_1_1_0_0_n_n 1024 rfl rfl).symm]
  refine Finset.sum_congr rfl fun k _ => ?_
  have hk := contrEquiv1_symm_val dot_S32x1024_S1024x1024_S32x1024_1_1_0_0_n_n 1024 rfl rfl k
  have el : dot_S32x1024_S1024x1024_S32x1024_1_1_0_0_n_n.lhsIdx (ix2 b u) ((contrEquiv1 dot_S32x1024_S1024x1024_S32x1024_1_1_0_0_n_n 1024 rfl rfl).symm k) = ix2 b k := funext fun a => Fin.ext (by
    match a with
    | ⟨0, _⟩ => exact lhs_0 _ _
    | ⟨1, _⟩ => exact (lhs_1 _ _).trans hk)
  have er : dot_S32x1024_S1024x1024_S32x1024_1_1_0_0_n_n.rhsIdx (ix2 b u) ((contrEquiv1 dot_S32x1024_S1024x1024_S32x1024_1_1_0_0_n_n 1024 rfl rfl).symm k) = ix2 u k := funext fun a => Fin.ext (by
    match a with
    | ⟨0, _⟩ => exact rhs_0 _ _
    | ⟨1, _⟩ => exact (rhs_1 _ _).trans hk)
  rw [el, er]

/-- The host's projection is the specification's, entry by entry. -/
theorem hidHost_eq (h : FVec Ideal S32x1024 .f32) (W2 : FVec Ideal S1024x1024 .f32) (b2 : FVec Ideal S1024 .f32) :
    hidHost h W2 b2 = Cert.Attn.hidArr h W2 b2 := by
  funext i
  obtain ⟨b, u0, u, rfl⟩ : ∃ (b : Fin 32) (u0 : Fin 1) (u : Fin 1024), i = ix3 b u0 u := ⟨i 0, i 1, i 2, eq_ix3 i⟩
  unfold hidHost
  refine (shapeCast_apply _ _ (ix3 b u0 u) (ix2 b u) (by
    have hu : u0.val = 0 := by omega
    rw [Shape.rowMajor_val_two, Shape.rowMajor_val_three]
    show b.val * 1024 + u.val = (b.val * 1 + u0.val) * 1024 + u.val
    rw [hu]; omega)).trans ?_
  rw [addf_apply, hdot_at]
  show _ = Cert.Attn.hid h W2 b2 b u
  unfold Cert.Attn.hid
  refine congrArg₂ (· + ·) rfl ?_
  refine (broadcastInDim_apply _ Facts₀.bcast_S1x1024_S32x1024_0_1 _ (ix2 b u) (ix2 (0 : Fin 1) u) (fun a => match a with
    | ⟨0, _⟩ => by show 0 = if (1 : Nat) = 1 then 0 else b.val; rw [if_pos rfl]
    | ⟨1, _⟩ => by show u.val = if (1024 : Nat) = 1 then 0 else u.val; rw [if_neg (by decide)])).trans ?_
  exact broadcastInDim_apply _ Facts₀.bcast_S1024_S1x1024_1 b2 (ix2 (0 : Fin 1) u) (ix1 u) (fun a => match a with
    | ⟨0, _⟩ => by show u.val = if (1024 : Nat) = 1 then 0 else u.val; rw [if_neg (by decide)])

/-! ## Between the regions -/

/-- The score region leaves the score array in its output's buffer. -/
theorem W2_v5 (c : Dev nD) : W2 m ρ c (Proc.devRef .tc main_v5) = (dat0 (V1 m ρ) c).arrAt 6 cfg0.N := W2_arr m ρ c 6

/-- The first argument reaches the context region as launched. -/
theorem V3_arg0 (c : Dev nD) : V3 m ρ c main_arg0 = m ((c : Thread nD τ).loc main_arg0) := by
  have e1 : W3 m ρ c (Proc.devRef .tc main_arg0) = W2 m ρ c (Proc.devRef .tc main_arg0) := by
    show StableHlo.after hostOps1 (W2 m ρ c) (Proc.devRef .tc main_arg0) = _
    after_results
  have e2 : W2 m ρ c (Proc.devRef .tc main_arg0) = W1 m ρ c (Proc.devRef .tc main_arg0) :=
    (W2_arr m ρ c 0).trans (((dat0 (V1 m ρ) c).arrAt_in 0 rfl _).trans (A_eq0 (V1 m ρ) c 0))
  exact e1.trans (e2.trans (V1_arg0 m ρ c))

/-- The context region finds the attention weights: the shared softmax-and-transpose of the score array. -/
theorem V3_v17 (c : Dev nD) : V3 m ρ c main_v17 = Cert.Attn.softmaxT (W2 m ρ c (Proc.devRef .tc main_v5)) := by
  show StableHlo.after hostOps1 (W2 m ρ c) (Proc.devRef .tc main_v17) = _
  after_results; rfl

/-! ## After the context region -/

/-- The attention weights are returned as the context region found them. -/
theorem W5_v17 (c : Dev nD) : W5 m ρ c (Proc.devRef .tc main_v17) = V3 m ρ c main_v17 := by
  have e1 : W5 m ρ c (Proc.devRef .tc main_v17) = W4 m ρ c (Proc.devRef .tc main_v17) := by
    show StableHlo.after hostOps2 (W4 m ρ c) (Proc.devRef .tc main_v17) = _
    after_results
  exact e1.trans ((W4_arr m ρ c 1).trans (((dat1 (V3 m ρ) c).arrAt_in 1 rfl _).trans (A_eq1 (V3 m ρ) c 1)))

/-- The context result is the shared relayout of the context array the second region leaves. -/
theorem W5_v20 (c : Dev nD) : W5 m ρ c (Proc.devRef .tc main_v20) = Cert.Attn.relayout ((dat1 (V3 m ρ) c).arrAt 2 cfg1.N) := by
  have e1 : W5 m ρ c (Proc.devRef .tc main_v20) = Cert.Attn.relayout (W4 m ρ c (Proc.devRef .tc main_v18)) := by
    show StableHlo.after hostOps2 (W4 m ρ c) (Proc.devRef .tc main_v20) = _
    after_results; rfl
  rw [e1, W4_arr m ρ c 2]

end Cert.Attn.HostK

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KScore.lean ====
/-
  The score region's body at an index. The body loads a `[1, 1024, 1024]` block of `x` (1024 time steps of one batch
  entry), all of `W1`, `b1`, one row `[1, 1, 1024]` of the hidden projection, `V` and `vb`, and stores a `[1, 1024, 1]`
  block of scores. At row `r` of the block the stored value is
      Σ_u tanh((Σ_k x0[0,r,k] · W1[u,k] + b1[u]) + hp[0,0,u]) · V[0,u] + vb[0]:
  the product with `W1` contracts the last axis of both operands into a zero accumulator (so it is the plain sum; the
  casts to bf16 are the identity on extended reals), the two biases are row broadcasts, and the product with `V` is a
  pointwise product followed by a sum along each row.
-/
import proofs.«179102_j50989851738500_2_alg».proof.Proof.Gen.KernelIdeal.Skeleton
import proofs.«179102_j50989851738500_2_alg».proof.Proof.LibLayout
import Idealize.ShloMosaic.Lib.ValueLayout
import Idealize.ShloMosaic.PureOps.Ideal.Laws

noncomputable section

namespace Cert.Attn.ScoreBody

open Idealize.ShloMosaic Idealize.ShloMosaic.ValueIdx Cert.KernelIdeal Cert.KernelIdeal.Gen Cert.Attn.Layout

/-! The product with `W1` contracts the last axis of both operands: at output entry `j` and contraction index `q`
    the left operand is read at `(j 0, q)` and the right one at `(j 1, q)`. -/

theorem lhs_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The product into the zero accumulator, at entry `(r, u)`: the sum over the shared last axis. -/
theorem proj_at (A B : FVec Ideal S1024x1024 .bf16) (r u : Fin 1024) :
    matmul dot_S1024x1024_S1024x1024_S1024x1024_1_1_0_0_n_n none A B (constant (F := Ideal) S1024x1024 .f32 0x00000000#32) (ix2 r u)
      = ∑ k : Fin 1024, A (ix2 r k) * B (ix2 u k) := by
  refine (Ideal.matmul_constant_zero_apply dot_S1024x1024_S1024x1024_S1024x1024_1_1_0_0_n_n none A B (ix2 r u)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r u) ((contrEquiv1 dot_S1024x1024_S1024x1024_S1024x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 r u) ((contrEquiv1 dot_S1024x1024_S1024x1024_S1024x1024_1_1_0_0_n_n 1024 rfl rfl).symm k) = ix2 u k := funext fun a => Fin.ext (by
    match a with
    | ⟨0, _⟩ => exact rhs_0 _ _
    | ⟨1, _⟩ => exact (rhs_1 _ _).trans hk)
  rw [el, er]

/-- The body's stored value at row `r` of the block. -/
theorem pay_at (x0 : Vec Ideal S1x1024x1024 .f32) (x1 : Vec Ideal S1024x1024 .f32) (x2 : Vec Ideal S1024 .f32)
    (x3 : Vec Ideal S1x1x1024 .f32) (x4 : Vec Ideal S1x1024 .f32) (x5 : Vec Ideal S1 .f32) (u0 : Fin 1) (r : Fin 1024) (u1 : Fin 1) :
    k0_pay1 (F := Ideal) x0 x1 x2 x3 x4 x5 (ix3 u0 r u1)
      = (∑ u : Fin 1024, Ideal.tanh (((∑ k : Fin 1024, x0 (ix3 (0 : Fin 1) r k) * x1 (ix2 u k)) + x2 (ix1 u)) + x3 (ix3 (0 : Fin 1) (0 : Fin 1) u))
          * x4 (ix2 (0 : Fin 1) u)) + x5 (ix1 (0 : Fin 1)) := by
  obtain rfl : u1 = 0 := Subsingleton.elim _ _
  unfold k0_pay1
  refine (shapeCast_ab_1ab_apply _ _ u0 r 0).trans ?_
  rw [addf_apply]
  refine congrArg₂ (· + ·) ?_ ?_
  · refine (shapeCast_a_a1_apply _ _ r 0).trans ?_
    refine (rowSum_apply _ _ _ _ r).trans ?_
    refine Finset.sum_congr rfl fun u _ => ?_
    rw [mulf_apply]
    refine congrArg₂ (· * ·) ?_ (broadcastTo_1b_ab_apply _ _ r u)
    show Ideal.tanh _ = Ideal.tanh _
    refine congrArg Ideal.tanh ?_
    rw [addf_apply, addf_apply]
    refine congrArg₂ (· + ·) (congrArg₂ (· + ·) ?_ ?_) ?_
    · refine (proj_at _ _ r u).trans ?_
      refine Finset.sum_congr rfl fun k _ => ?_
      show shapeCast S1024x1024 x0 _ (ix2 r k) * x1 (ix2 u k) = _
      rw [shapeCast_1ab_ab_apply]
    · exact (broadcastTo_1b_ab_apply _ _ r u).trans (shapeCast_a_1a_apply _ _ 0 u)
    · exact (broadcastTo_1b_ab_apply _ _ r u).trans (shapeCast_1ab_ab_apply _ _ 0 u)
  · exact (broadcastTo_1b_ab_apply _ _ r 0).trans (shapeCast_a_1a_apply _ _ 0 0)

end Cert.Attn.ScoreBody

end
-- ==== Proof.KScoreArr.lean ====
/-
  The score array after the first region. The region's grid is 32 × 2: point (b, τ) reads rows τ·1024 … τ·1024 + 1023 of
  batch entry `b` of `x`, row `b` of the hidden projection, and all of `W1`, `b1`, `V`, `vb`, and writes back rows
  τ·1024 … of entry `b` of the `[32, 2048, 1]` score array. Each block written back is the block of ONE function of the
  arrays the region finds (the specification's `scoreArr`), and the 64 blocks tile the array; so the array ends holding
  that function. Stated for any contents `V` of the buffers at the region's entry.
-/
import proofs.«179102_j50989851738500_2_alg».proof.Proof.Gen.KernelIdeal.Frame
import proofs.«179102_j50989851738500_2_alg».proof.Proof.KScore
import proofs.«179102_j50989851738500_2_alg».proof.Proof.Spec
import Idealize.ShloMosaic.Lib.Pipeline.Value

set_option maxRecDepth 16384

noncomputable section

namespace Cert.Attn.ScoreArr

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Each input window's block, read off its array: an entry of a block sits, on every axis, at the block index times
    the block's extent plus its own coordinate -/

/-- The block of `x`. -/
theorem rd0 (c : Dev nD) (t : Fin cfg0.N) (z : S1x1024x1024.Idx) (k : S32x2048x1024.Idx)
    (h0 : (k 0).val = win0_0.index t (0 : Fin 3) * 1 + (z 0).val) (h1 : (k 1).val = win0_0.index t (1 : Fin 3) * 1024 + (z 1).val) (h2 : (k 2).val = win0_0.index t (2 : Fin 3) * 1024 + (z 2).val) :
    iblk0 V c 0 t z = V c main_arg0 k := by
  unfold iblk0
  rw [View.read_apply]
  show V c main_arg0 (((cfg0.win 0).blk t).view.emb z) = V c main_arg0 k
  refine congrArg _ (funext fun a => Fin.ext ?_)
  match a with
  | ⟨0, _⟩ => show win0_0.index t (0 : Fin 3) * 1 + 1 * (z 0).val = (k 0).val; omega
  | ⟨1, _⟩ => show win0_0.index t (1 : Fin 3) * 1024 + 1 * (z 1).val = (k 1).val; omega
  | ⟨2, _⟩ => show win0_0.index t (2 : Fin 3) * 1024 + 1 * (z 2).val = (k 2).val; omega

/-- The block of `W1` (the whole array). -/
theorem rd1 (c : Dev nD) (t : Fin cfg0.N) (z : S1024x1024.Idx) (k : S1024x1024.Idx)
    (h0 : (k 0).val = win0_1.index t (0 : Fin 2) * 1024 + (z 0).val) (h1 : (k 1).val = win0_1.index t (1 : Fin 2) * 1024 + (z 1).val) :
    iblk0 V c 1 t z = V c main_arg2 k := by
  unfold iblk0
  rw [View.read_apply]
  show V c main_arg2 (((cfg0.win 1).blk t).view.emb z) = V c main_arg2 k
  refine congrArg _ (funext fun a => Fin.ext ?_)
  match a with
  | ⟨0, _⟩ => show win0_1.index t (0 : Fin 2) * 1024 + 1 * (z 0).val = (k 0).val; omega
  | ⟨1, _⟩ => show win0_1.index t (1 : Fin 2) * 1024 + 1 * (z 1).val = (k 1).val; omega

/-- The block of `b1` (the whole array). -/
theorem rd2 (c : Dev nD) (t : Fin cfg0.N) (z : S1024.Idx) (k : S1024.Idx)
    (h0 : (k 0).val = win0_2.index t (0 : Fin 1) * 1024 + (z 0).val) :
    iblk0 V c 2 t z = V c main_arg3 k := by
  unfold iblk0
  rw [View.read_apply]
  show V c main_arg3 (((cfg0.win 2).blk t).view.emb z) = V c main_arg3 k
  refine congrArg _ (funext fun a => Fin.ext ?_)
  match a with
  | ⟨0, _⟩ => show win0_2.index t (0 : Fin 1) * 1024 + 1 * (z 0).val = (k 0).val; omega

/-- The block of the hidden projection (one row). -/
theorem rd3 (c : Dev nD) (t : Fin cfg0.N) (z : S1x1x1024.Idx) (k : S32x1x1024.Idx)
    (h0 : (k 0).val = win0_3.index t (0 : Fin 3) * 1 + (z 0).val) (h1 : (k 1).val = win0_3.index t (1 : Fin 3) * 1 + (z 1).val) (h2 : (k 2).val = win0_3.index t (2 : Fin 3) * 1024 + (z 2).val) :
    iblk0 V c 3 t z = V c main_v4 k := by
  unfold iblk0
  rw [View.read_apply]
  show V c main_v4 (((cfg0.win 3).blk t).view.emb z) = V c main_v4 k
  refine congrArg _ (funext fun a => Fin.ext ?_)
  match a with
  | ⟨0, _⟩ => show win0_3.index t (0 : Fin 3) * 1 + 1 * (z 0).val = (k 0).val; omega
  | ⟨1, _⟩ => show win0_3.index t (1 : Fin 3) * 1 + 1 * (z 1).val = (k 1).val; omega
  | ⟨2, _⟩ => show win0_3.index t (2 : Fin 3) * 1024 + 1 * (z 2).val = (k 2).val; omega

/-- The block of `V` (the whole array). -/
theorem rd4 (c : Dev nD) (t : Fin cfg0.N) (z : S1x1024.Idx) (k : S1x1024.Idx)
    (h0 : (k 0).val = win0_4.index t (0 : Fin 2) * 1 + (z 0).val) (h1 : (k 1).val = win0_4.index t (1 : Fin 2) * 1024 + (z 1).val) :
    iblk0 V c 4 t z = V c main_arg6 k := by
  unfold iblk0
  rw [View.read_apply]
  show V c main_arg6 (((cfg0.win 4).blk t).view.emb z) = V c main_arg6 k
  refine congrArg _ (funext fun a => Fin.ext ?_)
  match a with
  | ⟨0, _⟩ => show win0_4.index t (0 : Fin 2) * 1 + 1 * (z 0).val = (k 0).val; omega
  | ⟨1, _⟩ => show win0_4.index t (1 : Fin 2) * 1024 + 1 * (z 1).val = (k 1).val; omega

/-- The block of `vb` (the whole array). -/
theorem rd5 (c : Dev nD) (t : Fin cfg0.N) (z : S1.Idx) (k : S1.Idx)
    (h0 : (k 0).val = win0_5.index t (0 : Fin 1) * 1 + (z 0).val) :
    iblk0 V c 5 t z = V c main_arg7 k := by
  unfold iblk0
  rw [View.read_apply]
  show V c main_arg7 (((cfg0.win 5).blk t).view.emb z) = V c main_arg7 k
  refine congrArg _ (funext fun a => Fin.ext ?_)
  match a with
  | ⟨0, _⟩ => show win0_5.index t (0 : Fin 1) * 1 + 1 * (z 0).val = (k 0).val; omega

/-! ## One point -/

/-- The body's stored value at an entry `y` of its block is the specification's score at the array index `i`, as soon
    as the loaded blocks are the rows of the arrays that `i` names. -/
theorem point_eq (X : S32x2048x1024.Idx → EReal) (W1 : S1024x1024.Idx → EReal) (b1 : S1024.Idx → EReal)
    (hp : S32x1x1024.Idx → EReal) (Vw : S1x1024.Idx → EReal) (vb : S1.Idx → EReal)
    (x0 : Vec Ideal S1x1024x1024 .f32) (x1 : Vec Ideal S1024x1024 .f32) (x2 : Vec Ideal S1024 .f32)
    (x3 : Vec Ideal S1x1x1024 .f32) (x4 : Vec Ideal S1x1024 .f32) (x5 : Vec Ideal S1 .f32)
    (y : S1x1024x1.Idx) (i : S32x2048x1.Idx)
    (h0 : ∀ k : Fin 1024, x0 (ix3 (0 : Fin 1) (y 1) k) = X (ix3 (i 0) (i 1) k))
    (h1 : x1 = W1) (h2 : x2 = b1)
    (h3 : ∀ u : Fin 1024, x3 (ix3 (0 : Fin 1) (0 : Fin 1) u) = hp (ix3 (i 0) (0 : Fin 1) u))
    (h4 : x4 = Vw) (h5 : x5 = vb) :
    k0_pay1 (F := Ideal) x0 x1 x2 x3 x4 x5 y = Cert.Attn.scoreArr X W1 b1 hp Vw vb i := by
  subst h1 h2 h4 h5
  obtain ⟨u0, r, u1, rfl⟩ : ∃ (u0 : Fin 1) (r : Fin 1024) (u1 : Fin 1), y = ix3 u0 r u1 := ⟨y 0, y 1, y 2, eq_ix3 y⟩
  have h0' : ∀ k : Fin 1024, x0 (ix3 (0 : Fin 1) r k) = X (ix3 (i 0) (i 1) k) := h0
  rw [Cert.Attn.ScoreBody.pay_at]
  unfold Cert.Attn.scoreArr Cert.Attn.score
  simp only [h0', h3]

/-! ## The index maps over the grid -/

/-- The printed index maps, decided over the 64 points: the block of `x` moves with the output's block on the batch and
    time axes, the hidden projection's with the batch axis, and the other four operands are whole arrays. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = win0_6.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (2 : Fin 3) = 0 ∧ win0_6.index t (0 : Fin 3) < 32 ∧ win0_6.index t (1 : Fin 3) < 2 :=
  (by decide +kernel : ∀ t : Fin grid0.N, _)

/-- Every block of the output array is some point's. -/
theorem idx_onto : ∀ (q0 : Fin 32) (q1 : Fin 2), ∃ t : Fin cfg0.N, win0_6.index t = ![q0.val, q1.val, 0] :=
  (by decide +kernel : ∀ (q0 : Fin 32) (q1 : Fin 2), ∃ t : Fin grid0.N, win0_6.index t = ![q0.val, q1.val, 0])

/-! ## What a point writes back, the cover, the array -/

/-- What point `t` writes back is block `t` of the specification's score array of the arrays the region finds. -/
theorem flushed_eq (c : Dev nD) (t : Fin cfg0.N) :
    (dat0 V c).flushed 6 t = ((cfg0.win 6).blk t).view.read (Elt Ideal)
      (Cert.Attn.scoreArr (V c main_arg0) (V c main_arg2) (V c main_arg3) (V c main_v4) (V c main_arg6) (V c main_arg7)) := by
  show (cfg0.win 6).cut (grid0.coords t) ((dat0 V c).after 6 t) = _
  rw [after0_6]
  unfold out0_6
  rw [View.canon_unit_zero hz3]
  simp only [View.ld_unit_zero (S := S1x1024x1024) hz3, View.ld_unit_zero (S := S1024x1024) hz2, View.ld_unit_zero (S := S1024) hz1,
    View.ld_unit_zero (S := S1x1x1024) hz3, View.ld_unit_zero (S := S1x1024) hz2, View.ld_unit_zero (S := S1) hz1]
  obtain ⟨e00, e01, e02, e10, e11, e20, e30, e31, e32, e40, e41, e50, e62, l0, l1⟩ := idx_facts t
  funext y
  show k0_pay1 (F := Ideal) (iblk0 V c 0 t) (iblk0 V c 1 t) (iblk0 V c 2 t) (iblk0 V c 3 t) (iblk0 V c 4 t) (iblk0 V c 5 t) y
    = Cert.Attn.scoreArr (V c main_arg0) (V c main_arg2) (V c main_arg3) (V c main_v4) (V c main_arg6) (V c main_arg7) (((cfg0.win 6).blk t).view.emb y)
  have E0 : ((((cfg0.win 6).blk t).view.emb y) 0).val = win0_6.index t (0 : Fin 3) * 1 + 1 * (y 0).val := rfl
  have E1 : ((((cfg0.win 6).blk t).view.emb y) 1).val = win0_6.index t (1 : Fin 3) * 1024 + 1 * (y 1).val := rfl
  have y0 : (y 0).val < 1 := (y 0).isLt
  refine point_eq (V c main_arg0) (V c main_arg2) (V c main_arg3) (V c main_v4) (V c main_arg6) (V c main_arg7)
    (iblk0 V c 0 t) (iblk0 V c 1 t) (iblk0 V c 2 t) (iblk0 V c 3 t) (iblk0 V c 4 t) (iblk0 V c 5 t) y (((cfg0.win 6).blk t).view.emb y)
    (fun k => rd0 V c t (ix3 (0 : Fin 1) (y 1) k) (ix3 ((((cfg0.win 6).blk t).view.emb y) 0) ((((cfg0.win 6).blk t).view.emb y) 1) k) ?_ ?_ ?_)
    (funext fun z => rd1 V c t z z ?_ ?_) (funext fun z => rd2 V c t z z ?_)
    (fun u => rd3 V c t (ix3 (0 : Fin 1) (0 : Fin 1) u) (ix3 ((((cfg0.win 6).blk t).view.emb y) 0) (0 : Fin 1) u) ?_ ?_ ?_)
    (funext fun z => rd4 V c t z z ?_ ?_) (funext fun z => rd5 V c t z z ?_)
  · show ((((cfg0.win 6).blk t).view.emb y) 0).val = win0_0.index t (0 : Fin 3) * 1 + 0; omega
  · show ((((cfg0.win 6).blk t).view.emb y) 1).val = win0_0.index t (1 : Fin 3) * 1024 + (y 1).val; omega
  · show k.val = win0_0.index t (2 : Fin 3) * 1024 + k.val; omega
  · show (z 0).val = win0_1.index t (0 : Fin 2) * 1024 + (z 0).val; omega
  · show (z 1).val = win0_1.index t (1 : Fin 2) * 1024 + (z 1).val; omega
  · show (z 0).val = win0_2.index t (0 : Fin 1) * 1024 + (z 0).val; omega
  · show ((((cfg0.win 6).blk t).view.emb y) 0).val = win0_3.index t (0 : Fin 3) * 1 + 0; omega
  · show 0 = win0_3.index t (1 : Fin 3) * 1 + 0; omega
  · show u.val = win0_3.index t (2 : Fin 3) * 1024 + u.val; omega
  · show (z 0).val = win0_4.index t (0 : Fin 2) * 1 + (z 0).val; omega
  · show (z 1).val = win0_4.index t (1 : Fin 2) * 1024 + (z 1).val; omega
  · show (z 0).val = win0_5.index t (0 : Fin 1) * 1 + (z 0).val; omega

/-- An index of the score array is in point `t`'s block iff each coordinate is in the block's range on its axis. -/
theorem mem_blk (t : Fin cfg0.N) (i : S32x2048x1.Idx) :
    i ∈ ((cfg0.win 6).blk t).view.set ↔ ∀ a : Fin 3, win0_6.index t a * S1x1024x1.size a ≤ (i a).val ∧ (i a).val < win0_6.index t a * S1x1024x1.size a + S1x1024x1.size a := by
  show i ∈ ((View.whole main_v5).slice (win0_6.rect t)).set ↔ _
  rw [View.set_slice_whole, Rect.mem_set_unit]
  exact Iff.rfl

/-- The 64 blocks tile the score array: entry `(b, s, 0)` is in the block of the point with block index `(b, s / 1024, 0)`. -/
theorem cover (i : S32x2048x1.Idx) : ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 1 := (i 2).isLt
  obtain ⟨t, ht⟩ := idx_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1 ≤ (i 2).val ∧ (i 2).val < win0_6.index t (2 : Fin 3) * 1 + 1; omega

/-- The score array after the region: the specification's scores of the arrays the region finds. -/
theorem final (c : Dev nD) : (dat0 V c).arrAt 6 cfg0.N
    = Cert.Attn.scoreArr (V c main_arg0) (V c main_arg2) (V c main_arg3) (V c main_v4) (V c main_arg6) (V c main_arg7) :=
  (dat0 V c).arrAt_eq_of_cover 6 _ (fun t _ => flushed_eq V c t) cover

end Cert.Attn.ScoreArr

end
-- ==== Proof.KCtx.lean ====
/-
  The context region's body at an index. The body loads a `[1, 2048, 1024]` block of `x` (all time steps of one batch
  entry) and the `[1, 1, 2048]` row of attention weights of that entry, and stores the `[1, 1, 1024]` row
      Σ_t a[0,0,t] · x0[0,t,j]:
  a row vector times a matrix, the weights' last axis contracted with the block's first, into a zero accumulator (the
  casts to bf16 are the identity on extended reals).
-/
import proofs.«179102_j50989851738500_2_alg».proof.Proof.Gen.KernelIdeal.Skeleton
import Idealize.ShloMosaic.Lib.ValueLayout
import Idealize.ShloMosaic.PureOps.Ideal.Laws

noncomputable section

namespace Cert.Attn.CtxBody

open Idealize.ShloMosaic Idealize.ShloMosaic.ValueIdx Cert.KernelIdeal Cert.KernelIdeal.Gen

/-! The weighted sum contracts the weights' last axis with the block's first: at output entry `j` and contraction
    index `q` the left operand is read at `(j 0, q)` and the right one at `(q, j 1)`. -/

theorem lhs_0 (j : S1x1024.Idx) (q : dot_S1x2048_S2048x1024_S1x1024_1_0_0_1_n_n.contr.Idx) :
    (dot_S1x2048_S2048x1024_S1x1024_1_0_0_1_n_n.lhsIdx j q 0).val = (j 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs_1 (j : S1x1024.Idx) (q : dot_S1x2048_S2048x1024_S1x1024_1_0_0_1_n_n.contr.Idx) :
    (dot_S1x2048_S2048x1024_S1x1024_1_0_0_1_n_n.lhsIdx j q 1).val = (q ⟨0, by decide⟩).val :=
  dot_S1x2048_S2048x1024_S1x1024_1_0_0_1_n_n.lhsIdx_val_of_single rfl j q
theorem rhs_0 (j : S1x1024.Idx) (q : dot_S1x2048_S2048x1024_S1x1024_1_0_0_1_n_n.contr.Idx) :
    (dot_S1x2048_S2048x1024_S1x1024_1_0_0_1_n_n.rhsIdx j q 0).val = (q ⟨0, by decide⟩).val :=
  dot_S1x2048_S2048x1024_S1x1024_1_0_0_1_n_n.rhsIdx_val_of_single rfl j q
theorem rhs_1 (j : S1x1024.Idx) (q : dot_S1x2048_S2048x1024_S1x1024_1_0_0_1_n_n.contr.Idx) :
    (dot_S1x2048_S2048x1024_S1x1024_1_0_0_1_n_n.rhsIdx j q 1).val = (j 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The product into the zero accumulator, at entry `(p, j)`: the sum over the time axis. -/
theorem wsum_at (A : FVec Ideal S1x2048 .bf16) (B : FVec Ideal S2048x1024 .bf16) (p : Fin 1) (j : Fin 1024) :
    matmul dot_S1x2048_S2048x1024_S1x1024_1_0_0_1_n_n none A B (constant (F := Ideal) S1x1024 .f32 0x00000000#32) (ix2 p j)
      = ∑ t : Fin 2048, A (ix2 p t) * B (ix2 t j) := by
  refine (Ideal.matmul_constant_zero_apply dot_S1x2048_S2048x1024_S1x1024_1_0_0_1_n_n none A B (ix2 p j)).trans ?_
  rw [← Equiv.sum_comp (contrEquiv1 dot_S1x2048_S2048x1024_S1x1024_1_0_0_1_n_n 2048 rfl rfl).symm]
  refine Finset.sum_congr rfl fun t _ => ?_
  have ht := contrEquiv1_symm_val dot_S1x2048_S2048x1024_S1x1024_1_0_0_1_n_n 2048 rfl rfl t
  have el : dot_S1x2048_S2048x1024_S1x1024_1_0_0_1_n_n.lhsIdx (ix2 p j) ((contrEquiv1 dot_S1x2048_S2048x1024_S1x1024_1_0_0_1_n_n 2048 rfl rfl).symm t) = ix2 p t := funext fun a => Fin.ext (by
    match a with
    | ⟨0, _⟩ => exact lhs_0 _ _
    | ⟨1, _⟩ => exact (lhs_1 _ _).trans ht)
  have er : dot_S1x2048_S2048x1024_S1x1024_1_0_0_1_n_n.rhsIdx (ix2 p j) ((contrEquiv1 dot_S1x2048_S2048x1024_S1x1024_1_0_0_1_n_n 2048 rfl rfl).symm t) = ix2 t j := funext fun a => Fin.ext (by
    match a with
    | ⟨0, _⟩ => exact (rhs_0 _ _).trans ht
    | ⟨1, _⟩ => exact rhs_1 _ _)
  rw [el, er]

/-- The body's stored value at column `j`. -/
theorem pay_at (x0 : Vec Ideal S1x2048x1024 .f32) (x1 : Vec Ideal S1x1x2048 .f32) (u0 u1 : Fin 1) (j : Fin 1024) :
    k1_pay1 (F := Ideal) x0 x1 (ix3 u0 u1 j)
      = ∑ t : Fin 2048, x1 (ix3 (0 : Fin 1) (0 : Fin 1) t) * x0 (ix3 (0 : Fin 1) t j) := by
  obtain rfl : u1 = 0 := Subsingleton.elim _ _
  unfold k1_pay1
  refine (shapeCast_ab_1ab_apply _ _ u0 0 j).trans ?_
  refine (wsum_at _ _ 0 j).trans ?_
  refine Finset.sum_congr rfl fun t _ => ?_
  show shapeCast S1x2048 x1 _ (ix2 (0 : Fin 1) t) * shapeCast S2048x1024 x0 _ (ix2 t j) = _
  rw [shapeCast_1ab_ab_apply, shapeCast_1ab_ab_apply]

end Cert.Attn.CtxBody

end
-- ==== Proof.KCtxArr.lean ====
/-
  The context array after the second region. The region's grid is 32: point `b` reads batch entry `b` of `x` (all 2048
  time steps) and row `b` of the attention weights, and writes back row `b` of the `[32, 1, 1024]` context array. Each
  row written back is the row of ONE function of the arrays the region finds (the specification's `ctxArr`), and the 32
  rows tile the array; so the array ends holding that function. Stated for any contents `V` of the buffers at the
  region's entry.
-/
import proofs.«179102_j50989851738500_2_alg».proof.Proof.Gen.KernelIdeal.Frame
import proofs.«179102_j50989851738500_2_alg».proof.Proof.KCtx
import proofs.«179102_j50989851738500_2_alg».proof.Proof.Spec
import Idealize.ShloMosaic.Lib.Pipeline.Value

set_option maxRecDepth 16384

noncomputable section

namespace Cert.Attn.CtxArr

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-! ## Each input window's block, read off its array: an entry of a block sits, on every axis, at the block index times
    the block's extent plus its own coordinate -/

/-- The block of `x` (one batch entry). -/
theorem rd0 (c : Dev nD) (t : Fin cfg1.N) (z : S1x2048x1024.Idx) (k : S32x2048x1024.Idx)
    (h0 : (k 0).val = win1_0.index t (0 : Fin 3) * 1 + (z 0).val) (h1 : (k 1).val = win1_0.index t (1 : Fin 3) * 2048 + (z 1).val) (h2 : (k 2).val = win1_0.index t (2 : Fin 3) * 1024 + (z 2).val) :
    iblk1 V c 0 t z = V c main_arg0 k := by
  unfold iblk1
  rw [View.read_apply]
  show V c main_arg0 (((cfg1.win 0).blk t).view.emb z) = V c main_arg0 k
  refine congrArg _ (funext fun a => Fin.ext ?_)
  match a with
  | ⟨0, _⟩ => show win1_0.index t (0 : Fin 3) * 1 + 1 * (z 0).val = (k 0).val; omega
  | ⟨1, _⟩ => show win1_0.index t (1 : Fin 3) * 2048 + 1 * (z 1).val = (k 1).val; omega
  | ⟨2, _⟩ => show win1_0.index t (2 : Fin 3) * 1024 + 1 * (z 2).val = (k 2).val; omega

/-- The block of the attention weights (one row). -/
theorem rd1 (c : Dev nD) (t : Fin cfg1.N) (z : S1x1x2048.Idx) (k : S32x1x2048.Idx)
    (h0 : (k 0).val = win1_1.index t (0 : Fin 3) * 1 + (z 0).val) (h1 : (k 1).val = win1_1.index t (1 : Fin 3) * 1 + (z 1).val) (h2 : (k 2).val = win1_1.index t (2 : Fin 3) * 2048 + (z 2).val) :
    iblk1 V c 1 t z = V c main_v17 k := by
  unfold iblk1
  rw [View.read_apply]
  show V c main_v17 (((cfg1.win 1).blk t).view.emb z) = V c main_v17 k
  refine congrArg _ (funext fun a => Fin.ext ?_)
  match a with
  | ⟨0, _⟩ => show win1_1.index t (0 : Fin 3) * 1 + 1 * (z 0).val = (k 0).val; omega
  | ⟨1, _⟩ => show win1_1.index t (1 : Fin 3) * 1 + 1 * (z 1).val = (k 1).val; omega
  | ⟨2, _⟩ => show win1_1.index t (2 : Fin 3) * 2048 + 1 * (z 2).val = (k 2).val; omega

/-! ## One point -/

/-- The body's stored value at an entry `y` of its row is the specification's context at the array index `i`, as soon
    as the loaded blocks are the batch entry of `x` and the row of weights that `i` names. -/
theorem point_eq (X : S32x2048x1024.Idx → EReal) (A : S32x1x2048.Idx → EReal)
    (x0 : Vec Ideal S1x2048x1024 .f32) (x1 : Vec Ideal S1x1x2048 .f32) (y : S1x1x1024.Idx) (i : S32x1x1024.Idx)
    (h0 : ∀ s : Fin 2048, x0 (ix3 (0 : Fin 1) s (y 2)) = X (ix3 (i 0) s (i 2)))
    (h1 : ∀ s : Fin 2048, x1 (ix3 (0 : Fin 1) (0 : Fin 1) s) = A (ix3 (i 0) (0 : Fin 1) s)) :
    k1_pay1 (F := Ideal) x0 x1 y = Cert.Attn.ctxArr A X i := by
  obtain ⟨u0, u1, j, rfl⟩ : ∃ (u0 : Fin 1) (u1 : Fin 1) (j : Fin 1024), y = ix3 u0 u1 j := ⟨y 0, y 1, y 2, eq_ix3 y⟩
  have h0' : ∀ s : Fin 2048, x0 (ix3 (0 : Fin 1) s j) = X (ix3 (i 0) s (i 2)) := h0
  rw [Cert.Attn.CtxBody.pay_at]
  unfold Cert.Attn.ctxArr
  simp only [h0', h1]

/-! ## The index maps over the grid -/

/-- The printed index maps, decided over the 32 points: both input blocks move with the output's row on the batch axis. -/
theorem idx_facts : ∀ t : Fin cfg1.N,
    win1_0.index t (0 : Fin 3) = win1_2.index t (0 : Fin 3) ∧ win1_0.index t (1 : Fin 3) = 0 ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (1 : Fin 3) = 0 ∧ win1_2.index t (2 : Fin 3) = 0 ∧ win1_2.index t (0 : Fin 3) < 32 :=
  (by decide +kernel : ∀ t : Fin grid1.N, _)

/-- Every row of the output array is some point's. -/
theorem idx_onto : ∀ (q0 : Fin 32), ∃ t : Fin cfg1.N, win1_2.index t = ![q0.val, 0, 0] :=
  (by decide +kernel : ∀ (q0 : Fin 32), ∃ t : Fin grid1.N, win1_2.index t = ![q0.val, 0, 0])

/-! ## What a point writes back, the cover, the array -/

/-- What point `t` writes back is row `t` of the specification's context array of the arrays the region finds. -/
theorem flushed_eq (c : Dev nD) (t : Fin cfg1.N) :
    (dat1 V c).flushed 2 t = ((cfg1.win 2).blk t).view.read (Elt Ideal)
      (Cert.Attn.ctxArr (V c main_v17) (V c main_arg0)) := by
  show (cfg1.win 2).cut (grid1.coords t) ((dat1 V c).after 2 t) = _
  rw [after1_2]
  unfold out1_2
  rw [View.canon_unit_zero hz3]
  simp only [View.ld_unit_zero (S := S1x2048x1024) hz3, View.ld_unit_zero (S := S1x1x2048) hz3]
  obtain ⟨e00, e01, e02, e10, e11, e12, e21, e22, l0⟩ := idx_facts t
  funext y
  show k1_pay1 (F := Ideal) (iblk1 V c 0 t) (iblk1 V c 1 t) y
    = Cert.Attn.ctxArr (V c main_v17) (V c main_arg0) (((cfg1.win 2).blk t).view.emb y)
  have E0 : ((((cfg1.win 2).blk t).view.emb y) 0).val = win1_2.index t (0 : Fin 3) * 1 + 1 * (y 0).val := rfl
  have E2 : ((((cfg1.win 2).blk t).view.emb y) 2).val = win1_2.index t (2 : Fin 3) * 1024 + 1 * (y 2).val := rfl
  have y0 : (y 0).val < 1 := (y 0).isLt
  refine point_eq (V c main_arg0) (V c main_v17) (iblk1 V c 0 t) (iblk1 V c 1 t) y (((cfg1.win 2).blk t).view.emb y)
    (fun s => rd0 V c t (ix3 (0 : Fin 1) s (y 2)) (ix3 ((((cfg1.win 2).blk t).view.emb y) 0) s ((((cfg1.win 2).blk t).view.emb y) 2)) ?_ ?_ ?_)
    (fun s => rd1 V c t (ix3 (0 : Fin 1) (0 : Fin 1) s) (ix3 ((((cfg1.win 2).blk t).view.emb y) 0) (0 : Fin 1) s) ?_ ?_ ?_)
  · show ((((cfg1.win 2).blk t).view.emb y) 0).val = win1_0.index t (0 : Fin 3) * 1 + 0; omega
  · show s.val = win1_0.index t (1 : Fin 3) * 2048 + s.val; omega
  · show ((((cfg1.win 2).blk t).view.emb y) 2).val = win1_0.index t (2 : Fin 3) * 1024 + (y 2).val; omega
  · show ((((cfg1.win 2).blk t).view.emb y) 0).val = win1_1.index t (0 : Fin 3) * 1 + 0; omega
  · show 0 = win1_1.index t (1 : Fin 3) * 1 + 0; omega
  · show s.val = win1_1.index t (2 : Fin 3) * 2048 + s.val; omega

/-- An index of the context array is in point `t`'s row iff each coordinate is in the row's range on its axis. -/
theorem mem_blk (t : Fin cfg1.N) (i : S32x1x1024.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v18).slice (win1_2.rect t)).set ↔ _
  rw [View.set_slice_whole, Rect.mem_set_unit]
  exact Iff.rfl

/-- The 32 rows tile the context array: entry `(b, 0, j)` is in the row of the point with block index `(b, 0, 0)`. -/
theorem cover (i : S32x1x1024.Idx) : ∃ t : Fin cfg1.N, (cfg1.win 2).flush t = true ∧ i ∈ ((cfg1.win 2).blk t).view.set := by
  have hi0 : (i 0).val < 32 := (i 0).isLt
  have hi1 : (i 1).val < 1 := (i 1).isLt
  have hi2 : (i 2).val < 1024 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1024 ≤ (i 2).val ∧ (i 2).val < win1_2.index t (2 : Fin 3) * 1024 + 1024; omega

/-- The context array after the region: the specification's weighted sums of the arrays the region finds. -/
theorem final (c : Dev nD) : (dat1 V c).arrAt 2 cfg1.N = Cert.Attn.ctxArr (V c main_v17) (V c main_arg0) :=
  (dat1 V c).arrAt_eq_of_cover 2 _ (fun t _ => flushed_eq V c t) cover

end Cert.Attn.CtxArr

end
-- ==== Proof.Result.lean ====
/-
  The two results as functions of the eight argument arrays (in the programs' argument order: x, h, W1, b1, W2, b2, V, vb):
  the attention weights are the shared softmax-and-transpose of the specification's scores, and the context result is the
  shared relayout of the specification's weighted sums over those weights.
-/
import proofs.«179102_j50989851738500_2_alg».proof.Proof.Spec
import proofs.«179102_j50989851738500_2_alg».proof.Proof.Tail

noncomputable section

namespace Cert.Attn

open Idealize.ShloMosaic Cert.KernelIdeal

/-- The attention weights, `[32, 1, 2048]`. -/
def weights (a0 : FVec Ideal S32x2048x1024 .f32) (a1 : FVec Ideal S32x1024 .f32) (a2 : FVec Ideal S1024x1024 .f32)
    (a3 : FVec Ideal S1024 .f32) (a4 : FVec Ideal S1024x1024 .f32) (a5 : FVec Ideal S1024 .f32)
    (a6 : FVec Ideal S1x1024 .f32) (a7 : FVec Ideal S1 .f32) : FVec Ideal S32x1x2048 .f32 :=
  softmaxT (scoreArr a0 a2 a3 (hidArr a1 a4 a5) a6 a7)

/-- The context result, `[1, 32, 1024]`. -/
def context (a0 : FVec Ideal S32x2048x1024 .f32) (a1 : FVec Ideal S32x1024 .f32) (a2 : FVec Ideal S1024x1024 .f32)
    (a3 : FVec Ideal S1024 .f32) (a4 : FVec Ideal S1024x1024 .f32) (a5 : FVec Ideal S1024 .f32)
    (a6 : FVec Ideal S1x1024 .f32) (a7 : FVec Ideal S1 .f32) : FVec Ideal S1x32x1024 .f32 :=
  relayout (ctxArr (weights a0 a1 a2 a3 a4 a5 a6 a7) a0)

end Cert.Attn

end
-- ==== Proof.KValue.lean ====
/-
  The idealized kernel's value: its run ends with the attention-weights buffer at the specification's weights and the
  context buffer at the specification's context result, both as functions of the argument arrays as launched.
  The chain, backwards from the return: the relayout of the context region's array; that array is the weighted sums of
  the weights the region found and of `x`; the weights it found are the softmax-and-transpose of the score region's
  array; and that array is the scores of the arguments and of the hidden projection the host computed first.
-/
import proofs.«179102_j50989851738500_2_alg».proof.Proof.KRun
import proofs.«179102_j50989851738500_2_alg».proof.Proof.KHost
import proofs.«179102_j50989851738500_2_alg».proof.Proof.KScoreArr
import proofs.«179102_j50989851738500_2_alg».proof.Proof.KCtxArr
import proofs.«179102_j50989851738500_2_alg».proof.Proof.Result

set_option maxRecDepth 16384

noncomputable section

namespace Cert.Attn.KernelValue

open Idealize.ShloMosaic Idealize.ShloMosaic.TcCoe Idealize.SL.Sem
open Idealize.ShloMosaic.Pipeline (Dat)
open Cert.KernelIdeal Cert.KernelIdeal.Gen Cert.Attn.HostK

variable (m : (ℓ : Loc nD τ sig) → Buf (Elt Ideal) ℓ) (ρ : Dev nD → PrngReg)

/-- The attention weights of the launched arguments, as the contents of the weights' buffer. -/
def wOf (c : Dev nD) : Buf (Elt Ideal) ((c.tc : Thread nD τ).loc main_v17) :=
  Cert.Attn.weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The context result of the launched arguments, as the contents of the result's buffer. -/
def ctxOf (c : Dev nD) : Buf (Elt Ideal) ((c.tc : Thread nD τ).loc main_v20) :=
  Cert.Attn.context (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The score region leaves the specification's scores of the launched arguments. -/
theorem scores_eq (c : Dev nD) : (dat0 (V1 m ρ) c).arrAt 6 cfg0.N
    = Cert.Attn.scoreArr (m ((c : Thread nD τ).loc main_arg0)) (m ((c : Thread nD τ).loc main_arg2)) (m ((c : Thread nD τ).loc main_arg3)) (Cert.Attn.hidArr (m ((c : Thread nD τ).loc main_arg1)) (m ((c : Thread nD τ).loc main_arg4)) (m ((c : Thread nD τ).loc main_arg5))) (m ((c : Thread nD τ).loc main_arg6)) (m ((c : Thread nD τ).loc main_arg7)) := by
  rw [Cert.Attn.ScoreArr.final (V1 m ρ) c, V1_arg0, V1_arg2, V1_arg3, V1_v4, hidHost_eq, V1_arg6, V1_arg7]

/-- The weights' buffer ends at the specification's weights. -/
theorem weights_eq (c : Dev nD) : W5 m ρ c (Proc.devRef .tc main_v17) = wOf m c := by
  rw [W5_v17, V3_v17, W2_v5, scores_eq]
  rfl

/-- The result's buffer ends at the specification's context result. -/
theorem context_eq (c : Dev nD) : W5 m ρ c (Proc.devRef .tc main_v20) = ctxOf m c := by
  rw [W5_v20, Cert.Attn.CtxArr.final (V3 m ρ) c, V3_v17, W2_v5, scores_eq, V3_arg0]
  rfl

/-- The run, read: both results at the specification's functions of the arguments, the arguments unchanged. -/
theorem run : θ_run defs (onTc (τ := τ) (main (F := Ideal))) ⟨m, fun _ => 0, ρ⟩ (fun r => ∀ c : Dev nD,
      r.2.mem ((c.tc : Thread nD τ).loc main_v20) = ctxOf m c
      ∧ r.2.mem ((c.tc : Thread nD τ).loc main_v17) = wOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (context_eq m ρ c), (h c).2.1.trans (weights_eq m ρ c), (h c).2.2⟩)
    (Cert.KernelIdeal.Named.run m ρ)

end Cert.Attn.KernelValue

end
-- ==== Proof.RefValue.lean ====
/-
  The reference, stage by stage, against the specification (over the generated stage lemmas).
  Its score stage adds the four terms from the left, `((p + b1) + q) + b2` with `p = Σ_k x·W1` and `q = Σ_k h·W2`; the
  specification groups the hidden projection, `(p + b1) + (q + b2)`: associativity of addition on the extended reals, the
  one law of this certificate. From there the reference applies the same softmax-and-transpose, a batched product
  `Σ_t a[b,0,t] · x[b,t,u]` (the specification's context array), and the same relayout.
-/
import proofs.«179102_j50989851738500_2_alg».proof.Proof.Gen.ReferenceIdeal.Read
import proofs.«179102_j50989851738500_2_alg».proof.Proof.Spec
import proofs.«179102_j50989851738500_2_alg».proof.Proof.Tail

set_option maxRecDepth 16384

noncomputable section

namespace Cert.Attn.RefSide

open Idealize.ShloMosaic Idealize.ShloMosaic.ValueIdx
open Cert.ReferenceIdeal Cert.ReferenceIdeal.Gen Cert.ReferenceIdeal.Read

/-- The reference's score stage is the specification's score array over the specification's hidden projection. -/
theorem score_eq (x0 : (⟨S32x2048x1024, .f32⟩ : BufTy).Contents (Elt Ideal)) (x1 : (⟨S32x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) :
    val_main_v15 (F := Ideal) x0 x1 x2 x3 x4 x5 x6 x7 = Cert.Attn.scoreArr x0 x2 x3 (Cert.Attn.hidArr x1 x4 x5) x6 x7 := by
  funext i
  obtain ⟨b, t, u0, rfl⟩ : ∃ (b : Fin 32) (t : Fin 2048) (u0 : Fin 1), i = ix3 b t u0 := ⟨i 0, i 1, i 2, eq_ix3 i⟩
  obtain rfl : u0 = 0 := Subsingleton.elim _ _
  have e12l : ∀ u : Fin 1024, lidx_main_v12 (ix3 b t (0 : Fin 1)) u = ix3 b t u := fun u => funext fun a => Fin.ext (by match a with | ⟨0, _⟩ => rfl | ⟨1, _⟩ => rfl | ⟨2, _⟩ => rfl)
  have e12r : ∀ u : Fin 1024, ridx_main_v12 (ix3 b t (0 : Fin 1)) u = ix2 (0 : Fin 1) u := fun u => funext fun a => Fin.ext (by match a with | ⟨0, _⟩ => rfl | ⟨1, _⟩ => rfl)
  have e1l : ∀ u k : Fin 1024, lidx_main_v1 (ix3 b t u) k = ix3 b t k := fun u k => funext fun a => Fin.ext (by match a with | ⟨0, _⟩ => rfl | ⟨1, _⟩ => rfl | ⟨2, _⟩ => rfl)
  have e1r : ∀ u k : Fin 1024, ridx_main_v1 (ix3 b t u) k = ix2 u k := fun u k => funext fun a => Fin.ext (by match a with | ⟨0, _⟩ => rfl | ⟨1, _⟩ => rfl)
  have e3 : ∀ u : Fin 1024, idx_main_v2 (idx_main_v3 (ix3 b t u)) = ix1 u := fun u => funext fun a => Fin.ext (by match a with | ⟨0, _⟩ => rfl)
  have e6 : ∀ u : Fin 1024, idx_main_v6 (ix3 b t u) = ix3 b (0 : Fin 1) u := fun u => funext fun a => Fin.ext (by match a with | ⟨0, _⟩ => rfl | ⟨1, _⟩ => rfl | ⟨2, _⟩ => rfl)
  have e5l : ∀ u k : Fin 1024, lidx_main_v5 (ix3 b (0 : Fin 1) u) k = ix3 b (0 : Fin 1) k := fun u k => funext fun a => Fin.ext (by match a with | ⟨0, _⟩ => rfl | ⟨1, _⟩ => rfl | ⟨2, _⟩ => rfl)
  have e5r : ∀ u k : Fin 1024, ridx_main_v5 (ix3 b (0 : Fin 1) u) k = ix2 u k := fun u k => funext fun a => Fin.ext (by match a with | ⟨0, _⟩ => rfl | ⟨1, _⟩ => rfl)
  have e0 : ∀ k : Fin 1024, idx_main_v0 (ix3 b (0 : Fin 1) k) = ix2 b k := fun k => funext fun a => Fin.ext (by match a with | ⟨0, _⟩ => rfl | ⟨1, _⟩ => rfl)
  have e9 : ∀ u : Fin 1024, idx_main_v8 (idx_main_v9 (ix3 b t u)) = ix1 u := fun u => funext fun a => Fin.ext (by match a with | ⟨0, _⟩ => rfl)
  have e14 : idx_main_v13 (idx_main_v14 (ix3 b t (0 : Fin 1))) = ix1 (0 : Fin 1) := funext fun a => Fin.ext (by match a with | ⟨0, _⟩ => rfl)
  rw [val_main_v15_apply, val_main_v12_apply, val_main_v14_apply, val_main_v13_apply, e14]
  simp only [e12l, e12r, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, e1l, e1r, e3, e6, e5l, e5r, e0, e9]
  show _ = Cert.Attn.score x0 x2 x3 (Cert.Attn.hidArr x1 x4 x5) x6 x7 b t
  unfold Cert.Attn.score
  refine congrArg₂ (· + ·) (Finset.sum_congr rfl fun u _ => congrArg₂ (· * ·) (congrArg Ideal.tanh ?_) rfl) rfl
  show _ = _ + Cert.Attn.hid x1 x4 x5 b u
  unfold Cert.Attn.hid
  exact add_assoc _ _ _

/-- The reference's attention weights are the shared softmax-and-transpose of its score stage. -/
theorem weights_eq (x0 : (⟨S32x2048x1024, .f32⟩ : BufTy).Contents (Elt Ideal)) (x1 : (⟨S32x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) :
    val_main_v27 (F := Ideal) x0 x1 x2 x3 x4 x5 x6 x7 = Cert.Attn.softmaxT (val_main_v15 (F := Ideal) x0 x1 x2 x3 x4 x5 x6 x7) := rfl

/-- The reference's batched product is the specification's context array of its weights and `x`. -/
theorem ctx_eq (x0 : (⟨S32x2048x1024, .f32⟩ : BufTy).Contents (Elt Ideal)) (x1 : (⟨S32x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) :
    val_main_v28 (F := Ideal) x0 x1 x2 x3 x4 x5 x6 x7 = Cert.Attn.ctxArr (val_main_v27 (F := Ideal) x0 x1 x2 x3 x4 x5 x6 x7) x0 := by
  funext i
  obtain ⟨b, u0, u, rfl⟩ : ∃ (b : Fin 32) (u0 : Fin 1) (u : Fin 1024), i = ix3 b u0 u := ⟨i 0, i 1, i 2, eq_ix3 i⟩
  obtain rfl : u0 = 0 := Subsingleton.elim _ _
  have el : ∀ s : Fin 2048, lidx_main_v28 (ix3 b (0 : Fin 1) u) s = ix3 b (0 : Fin 1) s := fun s => funext fun a => Fin.ext (by match a with | ⟨0, _⟩ => rfl | ⟨1, _⟩ => rfl | ⟨2, _⟩ => rfl)
  have er : ∀ s : Fin 2048, ridx_main_v28 (ix3 b (0 : Fin 1) u) s = ix3 b s u := fun s => funext fun a => Fin.ext (by match a with | ⟨0, _⟩ => rfl | ⟨1, _⟩ => rfl | ⟨2, _⟩ => rfl)
  rw [val_main_v28_apply]
  simp only [el, er]
  rfl

/-- The reference's result is the shared relayout of its context stage. -/
theorem out_eq (x0 : (⟨S32x2048x1024, .f32⟩ : BufTy).Contents (Elt Ideal)) (x1 : (⟨S32x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) :
    val_main_v30 (F := Ideal) x0 x1 x2 x3 x4 x5 x6 x7 = Cert.Attn.relayout (val_main_v28 (F := Ideal) x0 x1 x2 x3 x4 x5 x6 x7) := rfl

end Cert.Attn.RefSide

end
-- ==== Proof.lean ====
/-
  Additive attention: scores `Σ_u tanh(Σ_k x[b,t,k]·W1[u,k] + b1[u] + Σ_k h[b,k]·W2[u,k] + b2[u]) · V[0,u] + vb[0]`, a softmax
  over the time axis, and the context vectors `Σ_t a[b,0,t] · x[b,t,u]`; two results, the context `[1, 32, 1024]` and the
  attention weights `[32, 1, 2048]`.
  The kernel computes the hidden projection on the host, the scores in a first region (a 32 × 2 grid of blocks of 1024
  time steps), the softmax on the host, and the context in a second region (one batch entry per point). On the extended
  reals the casts to bf16 are the identity and each matrix product into a zero accumulator is the plain sum, so both
  programs compute the same functions of their arguments (Proof/Result.lean): the scores agree up to the grouping of four
  summands (associativity of addition, which needs no finiteness), and from the scores on both programs apply the same
  operations, which are carried as named functions and never opened. The precondition is not used for the values.
  The frames of the two kernel programs are the generated ones; the reference's frame is its generated run with the
  results dropped; the idealization rewrote nothing, so its conjunct is `True`.
-/
import proofs.«179102_j50989851738500_2_alg».proof.Defs
import proofs.«179102_j50989851738500_2_alg».proof.Proof.Gen.Kernel
import proofs.«179102_j50989851738500_2_alg».proof.Proof.Gen.Kernel.Skeleton
import proofs.«179102_j50989851738500_2_alg».proof.Proof.Gen.Kernel.Launch
import proofs.«179102_j50989851738500_2_alg».proof.Proof.Gen.Kernel.Points
import proofs.«179102_j50989851738500_2_alg».proof.Proof.Gen.Kernel.Frame
import proofs.«179102_j50989851738500_2_alg».proof.Proof.Gen.KernelIdeal
import proofs.«179102_j50989851738500_2_alg».proof.Proof.Gen.KernelIdeal.Skeleton
import proofs.«179102_j50989851738500_2_alg».proof.Proof.Gen.KernelIdeal.Launch
import proofs.«179102_j50989851738500_2_alg».proof.Proof.Gen.KernelIdeal.Points
import proofs.«179102_j50989851738500_2_alg».proof.Proof.Gen.KernelIdeal.Frame
import proofs.«179102_j50989851738500_2_alg».proof.Proof.Gen.ReferenceIdeal
import proofs.«179102_j50989851738500_2_alg».proof.Proof.Gen.ReferenceIdeal.Run
import proofs.«179102_j50989851738500_2_alg».proof.Proof.Gen.ReferenceIdeal.Read
import proofs.«179102_j50989851738500_2_alg».proof.Proof.Gen.Pre_finite_inputs
import proofs.«179102_j50989851738500_2_alg».proof.Proof.KValue
import proofs.«179102_j50989851738500_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs, from memories agreeing on the arguments, end with the context result and the attention weights at
    the same functions of the arguments: the kernel by its run read through the two regions, the reference by its
    stages, which differ from the specification only in the grouping of the score's summands. -/
theorem algebraic : Cert.algebraic_KernelIdeal_ReferenceIdeal := by
  intro m ρ m' ρ' _ hagree
  refine ⟨Cert.Attn.KernelValue.ctxOf m, Cert.Attn.KernelValue.wOf m, Cert.Attn.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v30_eq, Cert.Attn.RefSide.out_eq, Cert.Attn.RefSide.ctx_eq,
      Cert.Attn.RefSide.weights_eq, Cert.Attn.RefSide.score_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    rfl
  · rw [Cert.ReferenceIdeal.Read.val_main_v27_eq, Cert.Attn.RefSide.weights_eq, Cert.Attn.RefSide.score_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
